-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def frame_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    frame_Kernel (hKernel := hKernel)
    ∧ frame_KernelIdeal (hKernelIdeal := hKernelIdeal)
    ∧ frame_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192 : Shape := ⟨2, ![4, 8192]⟩
abbrev S_ : Shape := ⟨0, ![]⟩
abbrev S4x8193 : Shape := ⟨2, ![4, 8193]⟩
abbrev S8193x4 : Shape := ⟨2, ![8193, 4]⟩
abbrev S1x8193x1x4 : Shape := ⟨4, ![1, 8193, 1, 4]⟩
abbrev S1x8193x16x4 : Shape := ⟨4, ![1, 8193, 16, 4]⟩
abbrev S8193x64 : Shape := ⟨2, ![8193, 64]⟩
abbrev S64 : Shape := ⟨1, ![64]⟩
abbrev S1x64 : Shape := ⟨2, ![1, 64]⟩
abbrev S8704x64 : Shape := ⟨2, ![8704, 64]⟩
abbrev S8193x64x128 : Shape := ⟨3, ![8193, 64, 128]⟩
abbrev S512x64 : Shape := ⟨2, ![512, 64]⟩
abbrev S512x64x128 : Shape := ⟨3, ![512, 64, 128]⟩
abbrev S512x64x1 : Shape := ⟨3, ![512, 64, 1]⟩
abbrev S8193x16x4x128 : Shape := ⟨4, ![8193, 16, 4, 128]⟩
abbrev S4x8193x16x128 : Shape := ⟨4, ![4, 8193, 16, 128]⟩
abbrev S4x8193x2048 : Shape := ⟨3, ![4, 8193, 2048]⟩

abbrev nBuf : Space → Nat
  | .hbm => 40
  | .vmem => 4
  | .smem => 0
  | _ => 0

abbrev bufTy : (tb : Table) → Fin (tcTables nBuf tb) → BufTy
  | .hbm, ⟨0, _⟩ => ⟨S4x8192, .i32⟩
  | .hbm, ⟨1, _⟩ => ⟨S_, .i32⟩
  | .hbm, ⟨2, _⟩ => ⟨S_, .i32⟩
  | .hbm, ⟨3, _⟩ => ⟨S4x8193, .i32⟩
  | .hbm, ⟨4, _⟩ => ⟨S8193x4, .i32⟩
  | .hbm, ⟨5, _⟩ => ⟨S1x8193x1x4, .i32⟩
  | .hbm, ⟨6, _⟩ => ⟨S1x8193x16x4, .i32⟩
  | .hbm, ⟨7, _⟩ => ⟨S8193x64, .i32⟩
  | .hbm, ⟨8, _⟩ => ⟨S64, .i32⟩
  | .hbm, ⟨9, _⟩ => ⟨S_, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S64, .i32⟩
  | .hbm, ⟨14, _⟩ => ⟨S_, .i32⟩
  | .hbm, ⟨15, _⟩ => ⟨S64, .i32⟩
  | .hbm, ⟨16, _⟩ => ⟨S64, .i1⟩
  | .hbm, ⟨17, _⟩ => ⟨S64, .i32⟩
  | .hbm, ⟨18, _⟩ => ⟨S64, .i32⟩
  | .hbm, ⟨19, _⟩ => ⟨S_, .i32⟩
  | .hbm, ⟨20, _⟩ => ⟨S64, .i32⟩
  | .hbm, ⟨21, _⟩ => ⟨S64, .i1⟩
  | .hbm, ⟨22, _⟩ => ⟨S64, .i1⟩
  | .hbm, ⟨23, _⟩ => ⟨S_, .i32⟩
  | .hbm, ⟨24, _⟩ => ⟨S64, .i32⟩
  | .hbm, ⟨25, _⟩ => ⟨S64, .i32⟩
  | .hbm, ⟨26, _⟩ => ⟨S64, .i32⟩
  | .hbm, ⟨27, _⟩ => ⟨S_, .i32⟩
  | .hbm, ⟨28, _⟩ => ⟨S64, .i32⟩
  | .hbm, ⟨29, _⟩ => ⟨S64, .i32⟩
  | .hbm, ⟨30, _⟩ => ⟨S1x64, .i32⟩
  | .hbm, ⟨31, _⟩ => ⟨S8193x64, .i32⟩
  | .hbm, ⟨32, _⟩ => ⟨S8193x64, .i32⟩
  | .hbm, ⟨33, _⟩ => ⟨S_, .i32⟩
  | .hbm, ⟨34, _⟩ => ⟨S_, .i32⟩
  | .hbm, ⟨35, _⟩ => ⟨S8704x64, .i32⟩
  | .hbm, ⟨36, _⟩ => ⟨S8193x64x128, .f32⟩
  | .hbm, ⟨37, _⟩ => ⟨S8193x16x4x128, .f32⟩
  | .hbm, ⟨38, _⟩ => ⟨S4x8193x16x128, .f32⟩
  | .hbm, ⟨39, _⟩ => ⟨S4x8193x2048, .f32⟩
  | .local _ .vmem, ⟨0, _⟩ => ⟨S512x64, .i32⟩
  | .local _ .vmem, ⟨1, _⟩ => ⟨S512x64, .i32⟩
  | .local _ .vmem, ⟨2, _⟩ => ⟨S512x64x128, .f32⟩
  | .local _ .vmem, ⟨3, _⟩ => ⟨S512x64x128, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_c : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_0 : Ref sig .tc := ⟨.hbm, 23, rfl⟩
abbrev main_call1_v12 : Ref sig .tc := ⟨.hbm, 24, rfl⟩
abbrev main_call1_v13 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c_2 : Ref sig .tc := ⟨.hbm, 33, rfl⟩
abbrev main_call2_v0 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x64 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  pads_S4x8192_S4x8193_000_100 : S4x8192.Pads (![0, 1] : Fin 2 → Nat) ![0, 0] ![0, 0] S4x8193
  h_S_ : 0 < S_.numel
  transposes_S4x8193_S8193x4_1_0 : S4x8193.Transposes [1, 0] S8193x4
  shapeCasts_S8193x4_S1x8193x1x4 : S8193x4.ShapeCasts S1x8193x1x4
  bcast_S1x8193x1x4_S1x8193x16x4_0_1_2_3 : S1x8193x1x4.BroadcastsInDim S1x8193x16x4 (![0, 1, 2, 3] : Fin 4 → Fin S1x8193x16x4.rank)
  shapeCasts_S1x8193x16x4_S8193x64 : S1x8193x16x4.ShapeCasts S8193x64
  bcast_S_S64 : S_.BroadcastsInDim S64 (![] : Fin 0 → Fin S64.rank)
  bcast_S64_S1x64_1 : S64.BroadcastsInDim S1x64 (![1] : Fin 1 → Fin S1x64.rank)
  bcast_S1x64_S8193x64_0_1 : S1x64.BroadcastsInDim S8193x64 (![0, 1] : Fin 2 → Fin S8193x64.rank)
  pads_S8193x64_S8704x64_05110_000 : S8193x64.Pads (![0, 0] : Fin 2 → Nat) ![511, 0] ![0, 0] S8704x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  iota_S512x64x128_d2_w32 : S512x64x128.Iotas .tc 32 [2]
  shapeCasts_S512x64_S512x64x1 : S512x64.ShapeCasts S512x64x1
  broadcasts_S512x64x1_S512x64x128 : S512x64x1.Broadcasts S512x64x128
  natLt_1_32 : 1 < 32
  inb_S512x64x128_S512x64x128_0_0_0 : ∀ a, (![0, 0, 0] : Fin 3 → Nat) a + S512x64x128.size a ≤ S512x64x128.size a
  h_S512x64x128 : 0 < S512x64x128.numel
  shapeCasts_S8193x64x128_S8193x16x4x128 : S8193x64x128.ShapeCasts S8193x16x4x128
  transposes_S8193x16x4x128_S4x8193x16x128_2_0_1_3 : S8193x16x4x128.Transposes [2, 0, 1, 3] S4x8193x16x128
  shapeCasts_S4x8193x16x128_S4x8193x2048 : S4x8193x16x128.ShapeCasts S4x8193x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S8704x64.size a
  hwx0_0 : ∀ i : grid0.Coords, EltTy.bits .i32 = 32 ∨ (Rect.block (s := S8704x64) S512x64.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x64x128.size a < S8193x64x128.size a
  hwx0_1 : ∀ i : grid0.Coords, EltTy.bits .f32 = 32 ∨ (Rect.unit (s := S8193x64x128) (fun a => cc0_transform_1 i a * S512x64x128.size a) (fun a => (Pipeline.Clip.of (cc0_transform_1 i a) (S512x64x128.size a) (S8193x64x128.size a)).extent (S512x64x128.size a)) fun a => Pipeline.Clip.inb (Pipeline.Clip.ok_of (hstart0_1 i a))).WholeWords (EltTy.packing .f32)
  hwxs0_1 : ∀ i : grid0.Coords, EltTy.bits .f32 = 32 ∨ (Rect.unit (s := S512x64x128) (fun _ => 0) (fun a => (Pipeline.Clip.of (cc0_transform_1 i a) (S512x64x128.size a) (S8193x64x128.size a)).extent (S512x64x128.size a)) fun a => (Nat.zero_add _).trans_le (Pipeline.Clip.extent_le (Pipeline.Clip.ok_of (hstart0_1 i a)))).WholeWords (EltTy.packing .f32)

variable [Facts₀]

abbrev win0_0 : Pipeline.Window sig grid0 :=
  Pipeline.Window.ofSpec (Memref.whole main_v12) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_v13) S512x64x128.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x8192 : Shape := ⟨2, ![4, 8192]⟩
abbrev S_ : Shape := ⟨0, ![]⟩
abbrev S4x8193 : Shape := ⟨2, ![4, 8193]⟩
abbrev S4x8193x1 : Shape := ⟨3, ![4, 8193, 1]⟩
abbrev S1x1x2048 : Shape := ⟨3, ![1, 1, 2048]⟩
abbrev S4x8193x2048 : Shape := ⟨3, ![4, 8193, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S_, .i32⟩
  | .hbm, ⟨2, _⟩ => ⟨S_, .i32⟩
  | .hbm, ⟨3, _⟩ => ⟨S4x8193, .i32⟩
  | .hbm, ⟨4, _⟩ => ⟨S4x8193x1, .i32⟩
  | .hbm, ⟨5, _⟩ => ⟨S1x1x2048, .i32⟩
  | .hbm, ⟨6, _⟩ => ⟨S4x8193x2048, .i32⟩
  | .hbm, ⟨7, _⟩ => ⟨S4x8193x2048, .i32⟩
  | .hbm, ⟨8, _⟩ => ⟨S4x8193x2048, .i1⟩
  | .hbm, ⟨9, _⟩ => ⟨S4x8193x2048, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_call1_v0 : Ref sig .tc := ⟨.hbm, 4, rfl⟩
abbrev main_call1_v1 : Ref sig .tc := ⟨.hbm, 5, rfl⟩
abbrev main_call1_v2 : Ref sig .tc := ⟨.hbm, 6, rfl⟩
abbrev main_call1_v3 : Ref sig .tc := ⟨.hbm, 7, rfl⟩
abbrev main_call1_v4 : Ref sig .tc := ⟨.hbm, 8, rfl⟩
abbrev main_v1 : Ref sig .tc := ⟨.hbm, 9, rfl⟩

abbrev nD : Nat := 1
abbrev τ : Topo := Topo.v7x

variable {F : FTy → Type} [FloatOps F]

class Facts₀ : Prop where
  pads_S4x8192_S4x8193_000_100 : S4x8192.Pads (![0, 1] : Fin 2 → Nat) ![0, 0] ![0, 0] S4x8193
  h_S_ : 0 < S_.numel
  bcast_S4x8193_S4x8193x1_0_1 : S4x8193.BroadcastsInDim S4x8193x1 (![0, 1] : Fin 2 → Fin S4x8193x1.rank)
  bcast_S4x8193x1_S4x8193x2048_0_1_2 : S4x8193x1.BroadcastsInDim S4x8193x2048 (![0, 1, 2] : Fin 3 → Fin S4x8193x2048.rank)
  bcast_S1x1x2048_S4x8193x2048_0_1_2 : S1x1x2048.BroadcastsInDim S4x8193x2048 (![0, 1, 2] : Fin 3 → Fin S4x8193x2048.rank)

variable [Facts₀]

class Facts : Prop extends Facts₀ where

variable [Facts]
-- ==== Proof.StripeLayout.lean ====
/-
  Layout algebra of the one-hot kernel, with no program in sight: four index-by-index readings of compositions of
  reshapes, transposes, broadcasts and a row padding, over literal extents.

  * the ids array [4, 8193] transposed, viewed [1, 8193, 1, 4], repeated 16 times along the third axis and flattened to
    [8193, 64] holds, in column c of row s, the id of batch c mod 4 at position s (`tile_apply`);
  * a vector of 64 words broadcast to every one of 8193 rows holds word c in column c (`rowBcast_apply`);
  * an [8193, 64] array padded below with 511 further rows reads, in a row below 8193, the array itself
    (`padRows_apply`);
  * an [8193, 64, 128] array viewed [8193, 16, 4, 128], its batch axis moved to the front, and flattened to
    [4, 8193, 2048] holds at (b, s, v) the entry (s, (v / 128) * 4 + b, v mod 128) (`untile_apply`): column
    (v / 128) * 4 + b is stripe v / 128 of batch b, lane v mod 128 the position inside the stripe.
-/
import Idealize.ShloMosaic.Lib.Pipeline.Value
import Idealize.ShloMosaic.Lib.ValueIdx
import Idealize.ShloMosaic.Lib.KernelVsHost

namespace Cert.StripeLayout

open Idealize.ShloMosaic Idealize.ShloMosaic.ValueIdx

variable {α : Type}

abbrev Ids : Shape := ⟨2, ![4, 8193]⟩
abbrev IdsT : Shape := ⟨2, ![8193, 4]⟩
abbrev IdsT4 : Shape := ⟨4, ![1, 8193, 1, 4]⟩
abbrev Tiled4 : Shape := ⟨4, ![1, 8193, 16, 4]⟩
abbrev Rows : Shape := ⟨2, ![8193, 64]⟩
abbrev RowsPadded : Shape := ⟨2, ![8704, 64]⟩
abbrev Cols : Shape := ⟨1, ![64]⟩
abbrev Cols1 : Shape := ⟨2, ![1, 64]⟩
abbrev Hot : Shape := ⟨3, ![8193, 64, 128]⟩
abbrev Hot4 : Shape := ⟨4, ![8193, 16, 4, 128]⟩
abbrev Hot4T : Shape := ⟨4, ![4, 8193, 16, 128]⟩
abbrev Out : Shape := ⟨3, ![4, 8193, 2048]⟩

/-- Column `c` of row `s` of the tiled ids is the id of batch `c mod 4` at position `s`. -/
theorem tile_apply (P : Ids.Idx → α) (ht : Ids.Transposes [1, 0] IdsT) (h1 : IdsT.ShapeCasts IdsT4)
    (hb : IdsT4.BroadcastsInDim Tiled4 (![0, 1, 2, 3] : Fin 4 → Fin Tiled4.rank)) (h2 : Tiled4.ShapeCasts Rows)
    (s : Fin 8193) (c : Fin 64) :
    shapeCast Rows (broadcastInDim Tiled4 ![0, 1, 2, 3] hb (shapeCast IdsT4 (transpose IdsT [1, 0] P ht) h1)) h2 (ix2 s c)
      = P (ix2 (⟨c.val % 4, Nat.mod_lt _ (by decide)⟩ : Fin 4) s) := by
  have hc := c.isLt
  have hs := s.isLt
  refine (shapeCast_apply _ h2 (ix2 s c)
    (ix4 (0 : Fin 1) s (⟨c.val / 4, by omega⟩ : Fin 16) (⟨c.val % 4, Nat.mod_lt _ (by decide)⟩ : Fin 4)) ?_).trans ?_
  · rw [Shape.rowMajor_val_four, Shape.rowMajor_val_two]
    show ((0 * 8193 + s.val) * 16 + c.val / 4) * 4 + c.val % 4 = s.val * 64 + c.val
    omega
  refine (broadcastInDim_apply _ hb _ _
    (ix4 (0 : Fin 1) s (0 : Fin 1) (⟨c.val % 4, Nat.mod_lt _ (by decide)⟩ : Fin 4)) ?_).trans ?_
  · intro a
    match a with
    | ⟨0, _⟩ => rfl
    | ⟨1, _⟩ => rfl
    | ⟨2, _⟩ => rfl
    | ⟨3, _⟩ => rfl
  refine (shapeCast_apply _ h1 _ (ix2 s (⟨c.val % 4, Nat.mod_lt _ (by decide)⟩ : Fin 4)) ?_).trans ?_
  · rw [Shape.rowMajor_val_four, Shape.rowMajor_val_two]
    show s.val * 4 + c.val % 4 = ((0 * 8193 + s.val) * 1 + 0) * 4 + c.val % 4
    omega
  refine transpose_apply [1, 0] P ht _ (ix2 (⟨c.val % 4, Nat.mod_lt _ (by decide)⟩ : Fin 4) s) ?_
  intro b
  match b with
  | ⟨0, _⟩ => rfl
  | ⟨1, _⟩ => rfl

/-- A 64-vector broadcast along 8193 rows holds its word `c` in column `c` of every row. -/
theorem rowBcast_apply (z : Cols.Idx → α) (h1 : Cols.BroadcastsInDim Cols1 (![1] : Fin 1 → Fin Cols1.rank))
    (h2 : Cols1.BroadcastsInDim Rows (![0, 1] : Fin 2 → Fin Rows.rank)) (s : Fin 8193) (c : Fin 64) :
    broadcastInDim Rows ![0, 1] h2 (broadcastInDim Cols1 ![1] h1 z) (ix2 s c) = z (ix1 c) := by
  refine (broadcastInDim_apply _ h2 _ _ (ix2 (0 : Fin 1) c) ?_).trans ?_
  · intro a
    match a with
    | ⟨0, _⟩ => rfl
    | ⟨1, _⟩ => rfl
  refine broadcastInDim_apply _ h1 z _ (ix1 c) ?_
  intro a
  match a with
  | ⟨0, _⟩ => rfl

/-- Rows padded below: a row below 8193 of the padded array is the array's row. -/
theorem padRows_apply (x : Rows.Idx → α) {u : Shape} (v : u.Idx → α)
    (h : Rows.Pads (![0, 0] : Fin 2 → Nat) ![511, 0] ![0, 0] RowsPadded) (hu : 0 < u.numel)
    (r : Fin 8704) (hr : r.val < 8193) (c : Fin 64) :
    pad RowsPadded ![0, 0] ![511, 0] ![0, 0] x v h hu (ix2 r c) = x (ix2 (⟨r.val, hr⟩ : Fin 8193) c) := by
  refine pad_apply_of_inside _ _ _ x v h hu _ (ix2 (⟨r.val, hr⟩ : Fin 8193) c) ?_
  intro a
  match a with
  | ⟨0, _⟩ => show r.val = 0 + r.val * (0 + 1); omega
  | ⟨1, _⟩ => show c.val = 0 + c.val * (0 + 1); omega

/-- The un-tiling after the kernel: entry (b, s, v) of the result is entry (s, (v / 128) * 4 + b, v mod 128). -/
theorem untile_apply (X : Hot.Idx → α) (h1 : Hot.ShapeCasts Hot4) (ht : Hot4.Transposes [2, 0, 1, 3] Hot4T)
    (h2 : Hot4T.ShapeCasts Out) (b : Fin 4) (s : Fin 8193) (v : Fin 2048) :
    shapeCast Out (transpose Hot4T [2, 0, 1, 3] (shapeCast Hot4 X h1) ht) h2 (ix3 b s v)
      = X (ix3 s (⟨v.val / 128 * 4 + b.val, by have := v.isLt; have := b.isLt; omega⟩ : Fin 64)
          (⟨v.val % 128, Nat.mod_lt _ (by decide)⟩ : Fin 128)) := by
  have hv := v.isLt
  have hb := b.isLt
  have hs := s.isLt
  refine (shapeCast_apply _ h2 (ix3 b s v)
    (ix4 b s (⟨v.val / 128, by omega⟩ : Fin 16) (⟨v.val % 128, Nat.mod_lt _ (by decide)⟩ : Fin 128)) ?_).trans ?_
  · rw [Shape.rowMajor_val_four, Shape.rowMajor_val_three]
    show ((b.val * 8193 + s.val) * 16 + v.val / 128) * 128 + v.val % 128 = (b.val * 8193 + s.val) * 2048 + v.val
    omega
  refine (transpose_apply [2, 0, 1, 3] _ ht _
    (ix4 s (⟨v.val / 128, by omega⟩ : Fin 16) b (⟨v.val % 128, Nat.mod_lt _ (by decide)⟩ : Fin 128)) ?_).trans ?_
  · intro a
    match a with
    | ⟨0, _⟩ => rfl
    | ⟨1, _⟩ => rfl
    | ⟨2, _⟩ => rfl
    | ⟨3, _⟩ => rfl
  refine shapeCast_apply X h1 _ _ ?_
  rw [Shape.rowMajor_val_four, Shape.rowMajor_val_three]
  show (s.val * 64 + (v.val / 128 * 4 + b.val)) * 128 + v.val % 128
    = ((s.val * 16 + v.val / 128) * 4 + b.val) * 128 + v.val % 128
  omega

end Cert.StripeLayout
-- ==== Proof.StripeOffset.lean ====
/-
  The stripe offsets. Column c of the 64 columns belongs to stripe c / 4 of the 2048-wide vocabulary axis, whose first
  vocabulary index is (c / 4) * 128. The host program computes that word as jnp's floor division of the column index
  by 4 — the quotient rounded toward zero, lowered by one where the signs differ and the remainder is not zero — times
  128. On the 64 non-negative column indices the correction never fires, and the chain is evaluated column by column.
-/
import Idealize.ShloMosaic.PureOps.Vector
import Idealize.ShloMosaic.PureOps.ShapeOps
import Idealize.ShloMosaic.Lib.ValueIdx

namespace Cert.StripeOffset

open Idealize.ShloMosaic Idealize.ShloMosaic.ValueIdx

abbrev Cols : Shape := ⟨1, ![64]⟩
abbrev Scalar0 : Shape := ⟨0, ![]⟩

theorem splat : Scalar0.BroadcastsInDim Cols (![] : Fin 0 → Fin Cols.rank) := by decide

/-- The floor quotient of the column index by 4 as the host program spells it, times 128. -/
def offsets : IVec Cols 32 :=
  muli
    (select
      (andi
        (cmpi .ne (signi (iotaInDim Cols 32 0))
          (broadcastInDim Cols ![] splat (signi (id (constantI Scalar0 32 4#32)))))
        (cmpi .ne (Host.remsi (iotaInDim Cols 32 0) (broadcastInDim Cols ![] splat (id (constantI Scalar0 32 4#32))))
          (broadcastInDim Cols ![] splat (constantI Scalar0 32 0#32))))
      (subi (Host.divsi (iotaInDim Cols 32 0) (broadcastInDim Cols ![] splat (id (constantI Scalar0 32 4#32))))
        (broadcastInDim Cols ![] splat (constantI Scalar0 32 1#32)))
      (Host.divsi (iotaInDim Cols 32 0) (broadcastInDim Cols ![] splat (id (constantI Scalar0 32 4#32)))))
    (broadcastInDim Cols ![] splat (constantI Scalar0 32 128#32))

/-- Column `c`'s offset is the first vocabulary index of its stripe. -/
theorem offsets_apply : ∀ c : Fin 64, offsets (ix1 c) = BitVec.ofNat 32 (c.val / 4 * 128) := by
  decide +kernel

end Cert.StripeOffset
-- ==== Proof.Targets.lean ====
/-
  The array the kernel's input window stages, as the region finds it: the target lanes.

  Before the region the host program prepends the start id 0 to each of the 4 id rows (the padded ids, [4, 8193]),
  lays them out as [8193, 64] with column c holding batch c mod 4, subtracts from column c the first vocabulary index
  (c / 4) * 128 of its stripe, and pads the rows up to 8704 = 17 * 512 with the word -1. So in every row s below 8193
  the word in column c is the padded id of batch c mod 4 at position s, minus (c / 4) * 128, in 32-bit arithmetic:
  the lane of stripe c / 4 at which that batch's one-hot row has its 1, when it has it inside that stripe.
-/
import proofs.«179684_g4715874091103_cont_8to1_c_864_11_alg».proof.Proof.Gen.KernelIdeal.Frame
import proofs.«179684_g4715874091103_cont_8to1_c_864_11_alg».proof.Proof.StripeLayout
import proofs.«179684_g4715874091103_cont_8to1_c_864_11_alg».proof.Proof.StripeOffset
import Idealize.ShloMosaic.Lib.StableHlo.Run

noncomputable section

namespace Cert.KernelIdeal.Targets

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]

/-- The ids with the start id 0 prepended to each row. -/
def padded (x0 : IVec S4x8192 32) : IVec S4x8193 32 :=
  pad S4x8193 ![0, 1] ![0, 0] ![0, 0] x0 (id (constantI S_ 32 0#32)) pads_S4x8192_S4x8193_000_100 h_S_

/-- The target lanes as a function of the padded ids. -/
def targets (P : IVec S4x8193 32) : IVec S8704x64 32 :=
  pad S8704x64 ![0, 0] ![511, 0] ![0, 0]
    (subi
      (shapeCast S8193x64
        (broadcastInDim S1x8193x16x4 ![0, 1, 2, 3] bcast_S1x8193x1x4_S1x8193x16x4_0_1_2_3
          (shapeCast S1x8193x1x4 (transpose S8193x4 [1, 0] P transposes_S4x8193_S8193x4_1_0)
            shapeCasts_S8193x4_S1x8193x1x4))
        shapeCasts_S1x8193x16x4_S8193x64)
      (broadcastInDim S8193x64 ![0, 1] bcast_S1x64_S8193x64_0_1
        (broadcastInDim S1x64 ![1] bcast_S64_S1x64_1 Cert.StripeOffset.offsets)))
    (id (constantI S_ 32 4294967295#32)) pads_S8193x64_S8704x64_05110_000 h_S_

/-- In a row below 8193, column `c` holds the padded id of batch `c mod 4` minus the stripe's first index. -/
theorem targets_apply (P : IVec S4x8193 32) (r : Fin 8704) (hr : r.val < 8193) (c : Fin 64) :
    targets P (ix2 r c)
      = IntOp.subi (P (ix2 (⟨c.val % 4, Nat.mod_lt _ (by decide)⟩ : Fin 4) (⟨r.val, hr⟩ : Fin 8193)))
          (BitVec.ofNat 32 (c.val / 4 * 128)) := by
  unfold targets
  refine (Cert.StripeLayout.padRows_apply _ _ pads_S8193x64_S8704x64_05110_000 h_S_ r hr c).trans ?_
  exact congrArg₂ IntOp.subi
    (Cert.StripeLayout.tile_apply P transposes_S4x8193_S8193x4_1_0 shapeCasts_S8193x4_S1x8193x1x4
      bcast_S1x8193x1x4_S1x8193x16x4_0_1_2_3 shapeCasts_S1x8193x16x4_S8193x64 (⟨r.val, hr⟩ : Fin 8193) c)
    ((Cert.StripeLayout.rowBcast_apply Cert.StripeOffset.offsets bcast_S64_S1x64_1 bcast_S1x64_S8193x64_0_1
      (⟨r.val, hr⟩ : Fin 8193) c).trans (Cert.StripeOffset.offsets_apply c))

variable (m : (ℓ : Loc nD τ sig) → Buf (Elt F) ℓ)

set_option maxHeartbeats 1600000 in
/-- The input window's array at the region's entry is the target lanes of the padded ids. -/
theorem V_targets (c : Dev nD) :
    (V m c main_v12 : S8704x64.Idx → BitVec 32) = targets (padded (m ((c : Thread nD τ).loc main_arg0))) := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results_simp
  rfl

end Cert.KernelIdeal.Targets

end
-- ==== Proof.BodyValue.lean ====
/-
  What the kernel body stores, read at one index. The body loads a [512, 64] block of target lanes, repeats each word
  along a new last axis of 128 lanes, compares it with the lane number, and stores the one-bit answer widened with zeros
  to 32 bits and read as a signed integer. So entry (r, c, l) of the stored [512, 64, 128] block depends on the loaded
  word (r, c) alone: it is the integer [word = l].
-/
import proofs.«179684_g4715874091103_cont_8to1_c_864_11_alg».proof.Proof.Gen.KernelIdeal.Skeleton
import Idealize.ShloMosaic.Lib.Pipeline.Value
import Idealize.ShloMosaic.Lib.ValueIdx

noncomputable section

namespace Cert.KernelIdeal.BodyValue

open Cert.KernelIdeal Cert.KernelIdeal.Gen Idealize.ShloMosaic Idealize.ShloMosaic.ValueIdx

variable {F : FTy → Type} [FloatOps F]

/-- The repeated word: lane `l` of column `c` of row `r` is the loaded word (r, c). -/
theorem repeated_apply (x0 : IVec S512x64 32) (r : Fin 512) (c : Fin 64) (l : Fin 128) :
    broadcastTo S512x64x128
        (shapeCast S512x64x1 (shapeCast S512x64 x0 shapeCasts_S512x64_S512x64) shapeCasts_S512x64_S512x64x1)
        broadcasts_S512x64x1_S512x64x128 (ix3 r c l) = x0 (ix2 r c) := by
  refine (broadcastTo_apply _ broadcasts_S512x64x1_S512x64x128 (ix3 r c l) (ix3 r c (0 : Fin 1)) ?_).trans ?_
  · intro a
    match a with
    | ⟨0, _⟩ => rfl
    | ⟨1, _⟩ => rfl
    | ⟨2, _⟩ => rfl
  refine (shapeCast_apply _ shapeCasts_S512x64_S512x64x1 (ix3 r c (0 : Fin 1)) (ix2 r c) ?_).trans ?_
  · rw [Shape.rowMajor_val_two, Shape.rowMajor_val_three]
    show r.val * 64 + c.val = (r.val * 64 + c.val) * 1 + 0
    omega
  rw [shapeCast_self]

/-- The stored block at (r, c, l): the integer [loaded word (r, c) = l]. -/
theorem payload_apply (x0 : Vec F S512x64 .i32) (r : Fin 512) (c : Fin 64) (l : Fin 128) :
    k0_pay1 x0 (ix3 r c l)
      = FloatOps.sitofp .f32 ((IntOp.cmpi .eq (x0 (ix2 r c)) (BitVec.ofNat 32 l.val)).setWidth 32) := by
  unfold k0_pay1
  show FloatOps.sitofp .f32 ((IntOp.cmpi .eq
      (broadcastTo S512x64x128
        (shapeCast S512x64x1 (shapeCast S512x64 x0 shapeCasts_S512x64_S512x64) shapeCasts_S512x64_S512x64x1)
        broadcasts_S512x64x1_S512x64x128 (ix3 r c l))
      (iota .tc S512x64x128 32 [2] iota_S512x64x128_d2_w32 (ix3 r c l))).setWidth 32) = _
  have e1 : iota .tc S512x64x128 32 [2] iota_S512x64x128_d2_w32 (ix3 r c l) = BitVec.ofNat 32 l.val :=
    iota_single_apply .tc S512x64x128 32 2 iota_S512x64x128_d2_w32 (ix3 r c l)
  rw [e1, repeated_apply x0 r c l]

end Cert.KernelIdeal.BodyValue

end
-- ==== Proof.RegionValue.lean ====
/-
  The kernel's result array [8193, 64, 128] after the region, as ONE function of the target lanes.

  Grid point t (of 17) stages rows 512 t .. 512 t + 511 of the target lanes, and writes back, of the [512, 64, 128]
  block the body stored, the rows that lie inside the 8193-row result: all 512 at the first 16 points, the single row
  8192 at the last. By the body's reading (entry (r, c, l) of the stored block is [staged word (r, c) = l]) what point t
  writes back is its block of the expansion `expand A`, whose entry (s, c, l) is [A (s, c) = l] for the target lanes A.
  Row s lies in the block of point s / 512, so the 17 blocks cover the array, and the array ends as `expand A`.
-/
import proofs.«179684_g4715874091103_cont_8to1_c_864_11_alg».proof.Proof.Gen.KernelIdeal.Frame
import proofs.«179684_g4715874091103_cont_8to1_c_864_11_alg».proof.Proof.BodyValue
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]

/-- The one-hot expansion of an array of target lanes: entry (s, c, l) is the integer [A (s, c) = l]. -/
def expand (A : IVec S8704x64 32) : FVec F S8193x64x128 .f32 := fun i =>
  FloatOps.sitofp .f32 ((IntOp.cmpi .eq
    (A (ix2 (⟨(i 0).val, Nat.lt_of_lt_of_le (show (i 0).val < 8193 from (i 0).isLt) (by decide)⟩ : Fin 8704)
      (⟨(i 1).val, show (i 1).val < 64 from (i 1).isLt⟩ : Fin 64)))
    (BitVec.ofNat 32 (i 2).val)).setWidth 32)

theorem expand_apply (A : IVec S8704x64 32) (s : Fin 8193) (c : Fin 64) (l : Fin 128) :
    expand (F := F) A (ix3 s c l)
      = FloatOps.sitofp .f32 ((IntOp.cmpi .eq
          (A (ix2 (⟨s.val, Nat.lt_of_lt_of_le s.isLt (by decide)⟩ : Fin 8704) c)) (BitVec.ofNat 32 l.val)).setWidth 32) := rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The stored block at any index of the block. -/
theorem payload_at (X : Vec F S512x64 .i32) (j : S512x64x128.Idx) :
    k0_pay1 X j = FloatOps.sitofp .f32 ((IntOp.cmpi .eq
        (X (ix2 (⟨(j 0).val, show (j 0).val < 512 from (j 0).isLt⟩ : Fin 512) (⟨(j 1).val, show (j 1).val < 64 from (j 1).isLt⟩ : Fin 64)))
        (BitVec.ofNat 32 (j 2).val)).setWidth 32) :=
  (congrArg (k0_pay1 X) (eq_ix3 j)).trans
    (Cert.KernelIdeal.BodyValue.payload_apply X ⟨(j 0).val, (j 0).isLt⟩ ⟨(j 1).val, (j 1).isLt⟩ ⟨(j 2).val, (j 2).isLt⟩)

/-- The printed index maps and the clipped block heights, decided over the 17 grid points: both windows are at block
    t along the rows and block 0 along every other axis; the output block's height inside the array is 512, or what
    is left of the 8193 rows. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_1.xsize (grid0.coords t) (0 : Fin 3) = min 512 (8193 - t.val * 512)
    ∧ win0_1.xsize (grid0.coords t) (1 : Fin 3) = 64 ∧ win0_1.xsize (grid0.coords t) (2 : Fin 3) = 128 :=
  (by decide +kernel : ∀ t : Fin grid0.N, _)

variable (m : (ℓ : Loc nD τ sig) → Buf (Elt F) ℓ)

/-- The staged block of target lanes at point `t`, read at (r, cc), is the array at row 512 t + r. -/
theorem block_read (c : Dev nD) (t : Fin cfg0.N) (r : Fin 512) (cc : Fin 64) (R : Fin 8704) (C : Fin 64)
    (hR : R.val = t.val * 512 + r.val) (hC : C.val = cc.val) :
    iblk m c 0 t (ix2 r cc) = V m c main_v12 (ix2 R C) := by
  obtain ⟨e0, e1, -⟩ := idx_facts t
  show V m c main_v12 (((cfg0.win 0).blk t).view.emb (ix2 r cc)) = V m c main_v12 (ix2 R C)
  refine congrArg (V m c main_v12) ?_
  funext a
  apply Fin.ext
  match a with
  | ⟨0, _⟩ => show win0_0.index t (0 : Fin 2) * 512 + 1 * r.val = R.val; omega
  | ⟨1, _⟩ => show win0_0.index t (1 : Fin 2) * 64 + 1 * cc.val = C.val; omega

/-- WHAT POINT `t` WRITES BACK is its block of the expansion of the target lanes. -/
theorem flushed_eq (c : Dev nD) (t : Fin cfg0.N) :
    (dats m 0 c).flushed 1 t = ((cfg0.win 1).blk t).view.read (Elt F) (expand (V m c main_v12)) := by
  show (cfg0.win 1).cut (grid0.coords t) ((dats m 0 c).after 1 t) = _
  rw [after0_1]
  unfold out0_1
  rw [View.canon_unit_zero hz3]
  simp only [View.ld_unit_zero (S := S512x64) hz2]
  obtain ⟨-, -, e2, e3, e4, -⟩ := idx_facts t
  funext y
  show k0_pay1 (iblk m c 0 t) ((cfg0.win 1).xinj (grid0.coords t) y)
    = expand (V m c main_v12) (((cfg0.win 1).blk t).view.emb y)
  refine (payload_at (iblk m c 0 t) _).trans ?_
  have h0 : ((((cfg0.win 1).blk t).view.emb y) 0).val = t.val * 512 + (y 0).val := by
    show win0_1.index t (0 : Fin 3) * 512 + 1 * (y 0).val = _; omega
  have h1 : ((((cfg0.win 1).blk t).view.emb y) 1).val = (y 1).val := by
    show win0_1.index t (1 : Fin 3) * 64 + 1 * (y 1).val = _; omega
  have h2 : ((((cfg0.win 1).blk t).view.emb y) 2).val = (y 2).val := by
    show win0_1.index t (2 : Fin 3) * 128 + 1 * (y 2).val = _; omega
  unfold expand
  exact congrArg₂ (fun a b => FloatOps.sitofp (F := F) .f32 ((IntOp.cmpi .eq a b).setWidth 32))
    (block_read m c t _ _ _ _ h0 h1) (congrArg (BitVec.ofNat 32) h2.symm)

/-- An index of the result is in point `t`'s block iff each coordinate is in the block's range inside the array. -/
theorem mem_blk (t : Fin cfg0.N) (i : S8193x64x128.Idx) :
    i ∈ ((cfg0.win 1).blk t).view.set ↔ ∀ a : Fin 3, win0_1.index t a * S512x64x128.size a ≤ (i a).val
      ∧ (i a).val < win0_1.index t a * S512x64x128.size a + win0_1.xsize (grid0.coords t) a := by
  show i ∈ ((View.whole main_v13).slice (win0_1.rect t)).set ↔ _
  rw [View.set_slice_whole, Rect.mem_set_unit]
  exact Iff.rfl

/-- Row s is in the block of point s / 512: the 17 blocks cover the result. -/
theorem covered (i : S8193x64x128.Idx) :
    ∃ t : Fin cfg0.N, (cfg0.win 1).flush t = true ∧ i ∈ ((cfg0.win 1).blk t).view.set := by
  have h0 : (i 0).val < 8193 := (i 0).isLt
  have h1 : (i 1).val < 64 := (i 1).isLt
  have h2 : (i 2).val < 128 := (i 2).isLt
  have hN : grid0.N = 17 := N_0
  have ht : (i 0).val / 512 < grid0.N := by omega
  obtain ⟨-, -, e2, e3, e4, x0, x1, x2⟩ := idx_facts ⟨(i 0).val / 512, ht⟩
  refine ⟨⟨(i 0).val / 512, ht⟩, flush0_1 _, ?_⟩
  rw [mem_blk]
  intro a
  match a with
  | ⟨0, _⟩ =>
    show win0_1.index ⟨(i 0).val / 512, ht⟩ (0 : Fin 3) * 512 ≤ (i 0).val
      ∧ (i 0).val < win0_1.index ⟨(i 0).val / 512, ht⟩ (0 : Fin 3) * 512 + win0_1.xsize (grid0.coords ⟨(i 0).val / 512, ht⟩) (0 : Fin 3)
    rw [e2, x0]
    show (i 0).val / 512 * 512 ≤ (i 0).val ∧ (i 0).val < (i 0).val / 512 * 512 + min 512 (8193 - (i 0).val / 512 * 512)
    omega
  | ⟨1, _⟩ =>
    show win0_1.index ⟨(i 0).val / 512, ht⟩ (1 : Fin 3) * 64 ≤ (i 1).val
      ∧ (i 1).val < win0_1.index ⟨(i 0).val / 512, ht⟩ (1 : Fin 3) * 64 + win0_1.xsize (grid0.coords ⟨(i 0).val / 512, ht⟩) (1 : Fin 3)
    rw [e3, x1]
    omega
  | ⟨2, _⟩ =>
    show win0_1.index ⟨(i 0).val / 512, ht⟩ (2 : Fin 3) * 128 ≤ (i 2).val
      ∧ (i 2).val < win0_1.index ⟨(i 0).val / 512, ht⟩ (2 : Fin 3) * 128 + win0_1.xsize (grid0.coords ⟨(i 0).val / 512, ht⟩) (2 : Fin 3)
    rw [e4, x2]
    omega

/-- THE RESULT ARRAY after the region: the expansion of the target lanes. -/
theorem final (c : Dev nD) : (dats m 0 c).arrAt 1 cfg0.N = expand (V m c main_v12) :=
  (dats m 0 c).arrAt_eq_of_cover 1 (expand (V m c main_v12)) (fun t _ => flushed_eq m c t) covered

end Cert.KernelIdeal.RegionValue

end
-- ==== Proof.TailValue.lean ====
/-
  The host lines after the region. They view the kernel's [8193, 64, 128] result as [8193, 16, 4, 128], move the batch
  axis to the front, and flatten to [4, 8193, 2048]: entry (b, s, v) of the program's result is entry
  (s, (v / 128) * 4 + b, v mod 128) of the kernel's result array after the region.
-/
import proofs.«179684_g4715874091103_cont_8to1_c_864_11_alg».proof.Proof.Gen.KernelIdeal.Frame
import proofs.«179684_g4715874091103_cont_8to1_c_864_11_alg».proof.Proof.StripeLayout
import Idealize.ShloMosaic.Lib.StableHlo.Run
import Idealize.ShloMosaic.Lib.ValueIdx

noncomputable section

namespace Cert.KernelIdeal.TailValue

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]

/-- The three host lines after the region, as one function of the kernel's result array. -/
def untile (X : FVec F S8193x64x128 .f32) : FVec F S4x8193x2048 .f32 :=
  shapeCast S4x8193x2048
    (transpose S4x8193x16x128 [2, 0, 1, 3] (shapeCast S8193x16x4x128 X shapeCasts_S8193x64x128_S8193x16x4x128)
      transposes_S8193x16x4x128_S4x8193x16x128_2_0_1_3)
    shapeCasts_S4x8193x16x128_S4x8193x2048

/-- Entry (b, s, v) of the program's result is entry (s, (v / 128) * 4 + b, v mod 128) of the kernel's. -/
theorem untile_apply (X : FVec F S8193x64x128 .f32) (b : Fin 4) (s : Fin 8193) (v : Fin 2048) :
    untile X (ix3 b s v)
      = X (ix3 s (⟨v.val / 128 * 4 + b.val, by have := v.isLt; have := b.isLt; omega⟩ : Fin 64)
          (⟨v.val % 128, Nat.mod_lt _ (by decide)⟩ : Fin 128)) :=
  Cert.StripeLayout.untile_apply X shapeCasts_S8193x64x128_S8193x16x4x128
    transposes_S8193x16x4x128_S4x8193x16x128_2_0_1_3 shapeCasts_S4x8193x16x128_S4x8193x2048 b s v

variable (m : (ℓ : Loc nD τ sig) → Buf (Elt F) ℓ)

/-- The program's result after the host lines that follow the region: the un-tiling of the kernel's result array. -/
theorem tail_eq (c : Dev nD) :
    (Pipeline.afterTail₀ cfgs (dats m) 0 (V0 m) [hostOps1] c main_v16 : S4x8193x2048.Idx → F .f32)
      = untile ((dats m 0 c).arrAt 1 cfg0.N) := by
  unfold Pipeline.afterTail₀
  show StableHlo.after hostOps1 _ (Proc.devRef .tc main_v16) = _
  after_results
  have hw : Pipeline.withArrays (cfgs 0).spec c (V0 m c) (fun w => (dats m 0 c).arrAt w (cfgs 0).N)
      (Proc.devRef .tc main_v13) = (dats m 0 c).arrAt 1 cfg0.N :=
    Pipeline.withArrays_arr spec0 launch0.win.arr_inj c _ _ 1
  rw [hw]
  rfl

end Cert.KernelIdeal.TailValue

end
-- ==== Proof.OneHotWord.lean ====
/-
  The one law that joins the two programs, on one 32-bit id `x` and one vocabulary index k * 128 + l.

  The reference compares the id with the vocabulary index and reads the one-bit answer as an unsigned integer. The
  kernel subtracts the stripe's first index k * 128 from the id, compares the difference with the lane l, widens the
  one-bit answer with zeros to 32 bits and reads it as a signed integer. Subtraction of a fixed word is a bijection of
  the 32-bit words, so x - k * 128 = l exactly when x = k * 128 + l, whatever the id (negative ids and ids beyond the
  vocabulary included: both sides are then 0); and the bit 1, widened with zeros, is the signed integer 1. Both sides
  are therefore the real number 1 where the id is the vocabulary index and 0 elsewhere.
-/
import Idealize.ShloMosaic.PureOps.Ideal

namespace Cert.OneHotWord

open Idealize.ShloMosaic

theorem sub_eq_lane_iff (x : BitVec 32) (k l : Nat) :
    (x - BitVec.ofNat 32 (k * 128) = BitVec.ofNat 32 l) ↔ x = BitVec.ofNat 32 (k * 128 + l) := by
  have e : BitVec.ofNat 32 (k * 128 + l) = BitVec.ofNat 32 l + BitVec.ofNat 32 (k * 128) := by
    rw [Nat.add_comm, BitVec.ofNat_add]
  rw [e]
  constructor
  · intro hx
    rw [← hx]
    exact (BitVec.sub_add_cancel x _).symm
  · intro hx
    rw [hx]
    exact BitVec.add_sub_cancel _ _

/-- The kernel's word is the reference's word. -/
theorem kernel_word (x : BitVec 32) (k l : Nat) :
    FloatOps.sitofp (F := Ideal) .f32
        ((IntOp.cmpi .eq (IntOp.subi x (BitVec.ofNat 32 (k * 128))) (BitVec.ofNat 32 l)).setWidth 32)
      = FloatOps.uitofp (F := Ideal) .f32 (IntOp.cmpi .eq x (BitVec.ofNat 32 (k * 128 + l))) := by
  show ((((IntOp.cmpi .eq (x - BitVec.ofNat 32 (k * 128)) (BitVec.ofNat 32 l)).setWidth 32).toInt : ℝ) : EReal)
    = (((IntOp.cmpi .eq x (BitVec.ofNat 32 (k * 128 + l))).toNat : ℝ) : EReal)
  by_cases h : x = BitVec.ofNat 32 (k * 128 + l)
  · have h' := (sub_eq_lane_iff x k l).mpr h
    have c1 : IntOp.cmpi .eq (x - BitVec.ofNat 32 (k * 128)) (BitVec.ofNat 32 l) = 1#1 := by
      rw [h']; simp [IntOp.cmpi]
    have c2 : IntOp.cmpi .eq x (BitVec.ofNat 32 (k * 128 + l)) = 1#1 := by
      rw [← h]; simp [IntOp.cmpi]
    rw [c1, c2]
    have t1 : ((1#1 : BitVec 1).setWidth 32).toInt = 1 := by decide
    have t2 : (1#1 : BitVec 1).toNat = 1 := by decide
    rw [t1, t2]
    norm_num
  · have h' : ¬ (x - BitVec.ofNat 32 (k * 128) = BitVec.ofNat 32 l) := fun e => h ((sub_eq_lane_iff x k l).mp e)
    have c1 : IntOp.cmpi .eq (x - BitVec.ofNat 32 (k * 128)) (BitVec.ofNat 32 l) = 0#1 := by
      show BitVec.ofBool (x - BitVec.ofNat 32 (k * 128) == BitVec.ofNat 32 l) = 0#1
      rw [beq_eq_false_iff_ne.mpr h']; rfl
    have c2 : IntOp.cmpi .eq x (BitVec.ofNat 32 (k * 128 + l)) = 0#1 := by
      show BitVec.ofBool (x == BitVec.ofNat 32 (k * 128 + l)) = 0#1
      rw [beq_eq_false_iff_ne.mpr h]; rfl
    rw [c1, c2]
    have t1 : ((0#1 : BitVec 1).setWidth 32).toInt = 0 := by decide
    have t2 : (0#1 : BitVec 1).toNat = 0 := by decide
    rw [t1, t2]
    norm_num

end Cert.OneHotWord
-- ==== Proof.OneHotSpec.lean ====
/-
  The specification both programs meet. From the ids [4, 8192] prepend the start id 0 to each row (`withStart`,
  [4, 8193]); the result [4, 8193, 2048] holds at (b, s, v) the one-bit answer "id (b, s) equals the vocabulary index v",
  read as an unsigned integer: the real number 1 there, 0 elsewhere. An id outside 0 .. 2047 gives a row of zeros.
-/
import Idealize.ShloMosaic.PureOps.Ideal
import Idealize.ShloMosaic.PureOps.ShapeOps
import Idealize.ShloMosaic.Lib.ValueIdx

noncomputable section

namespace Cert.OneHotSpec

open Idealize.ShloMosaic Idealize.ShloMosaic.ValueIdx

abbrev RawIds : Shape := ⟨2, ![4, 8192]⟩
abbrev Ids : Shape := ⟨2, ![4, 8193]⟩
abbrev Out : Shape := ⟨3, ![4, 8193, 2048]⟩
abbrev Scalar0 : Shape := ⟨0, ![]⟩

theorem pads : RawIds.Pads (![0, 1] : Fin 2 → Nat) ![0, 0] ![0, 0] Ids := by decide
theorem one_elt : 0 < Scalar0.numel := by decide

/-- The ids with the start id 0 prepended to each row. -/
def withStart (x0 : IVec RawIds 32) : IVec Ids 32 :=
  pad Ids ![0, 1] ![0, 0] ![0, 0] x0 (id (constantI Scalar0 32 0#32)) pads one_elt

/-- The one-hot rows of an array of ids. -/
def oneHot (P : IVec Ids 32) : FVec Ideal Out .f32 := fun i =>
  FloatOps.uitofp (F := Ideal) .f32
    (IntOp.cmpi .eq (P (ix2 (⟨(i 0).val, show (i 0).val < 4 from (i 0).isLt⟩ : Fin 4)
      (⟨(i 1).val, show (i 1).val < 8193 from (i 1).isLt⟩ : Fin 8193))) (BitVec.ofNat 32 (i 2).val))

theorem oneHot_apply (P : IVec Ids 32) (b : Fin 4) (s : Fin 8193) (v : Fin 2048) :
    oneHot P (ix3 b s v) = FloatOps.uitofp (F := Ideal) .f32 (IntOp.cmpi .eq (P (ix2 b s)) (BitVec.ofNat 32 v.val)) := rfl

end Cert.OneHotSpec

end
-- ==== Proof.KernelValue.lean ====
/-
  The kernel program's value at the ideal instance. Entry (b, s, v) of its result is, by the host lines after the
  region, entry (s, c, l) of the kernel's array with c = (v / 128) * 4 + b and l = v mod 128; that is the integer
  [target lane (s, c) = l]; the target lane (s, c) is the id of batch c mod 4 = b at position s minus
  (c / 4) * 128 = (v / 128) * 128; and [id - (v / 128) * 128 = v mod 128] is [id = v] read as an unsigned integer
  (`kernel_word`, with (v / 128) * 128 + v mod 128 = v). So the program's result is the one-hot rows of the ids
  with the start id — the specification.
-/
import proofs.«179684_g4715874091103_cont_8to1_c_864_11_alg».proof.Proof.Targets
import proofs.«179684_g4715874091103_cont_8to1_c_864_11_alg».proof.Proof.RegionValue
import proofs.«179684_g4715874091103_cont_8to1_c_864_11_alg».proof.Proof.TailValue
import proofs.«179684_g4715874091103_cont_8to1_c_864_11_alg».proof.Proof.OneHotWord
import proofs.«179684_g4715874091103_cont_8to1_c_864_11_alg».proof.Proof.OneHotSpec

noncomputable section

namespace Cert.KernelIdeal.KernelValue

open Cert.KernelIdeal Cert.KernelIdeal.Gen Idealize.ShloMosaic Idealize.ShloMosaic.TcCoe Idealize.SL.Sem
open Idealize.ShloMosaic.ValueIdx

/-- One word of the kernel's result against one word of the specification. -/
theorem word_at (P : IVec S4x8193 32) (b : Fin 4) (s : Fin 8193) (v : Fin 2048) (B : Fin 4) (S : Fin 8193) (k : Nat)
    (hB : B.val = b.val) (hS : S.val = s.val) (hk : k = v.val / 128 * 128) :
    FloatOps.sitofp (F := Ideal) .f32
        ((IntOp.cmpi .eq (IntOp.subi (P (ix2 B S)) (BitVec.ofNat 32 k)) (BitVec.ofNat 32 (v.val % 128))).setWidth 32)
      = FloatOps.uitofp (F := Ideal) .f32 (IntOp.cmpi .eq (P (ix2 b s)) (BitVec.ofNat 32 v.val)) := by
  obtain rfl : B = b := Fin.ext hB
  obtain rfl : S = s := Fin.ext hS
  subst hk
  have h := Cert.OneHotWord.kernel_word (P (ix2 B S)) (v.val / 128) (v.val % 128)
  rw [show v.val / 128 * 128 + v.val % 128 = v.val from by omega] at h
  exact h

/-- The un-tiled expansion of the target lanes of the padded ids is their one-hot rows. -/
theorem result_eq (P : IVec S4x8193 32) :
    Cert.KernelIdeal.TailValue.untile (Cert.KernelIdeal.RegionValue.expand (F := Ideal) (Cert.KernelIdeal.Targets.targets P))
      = Cert.OneHotSpec.oneHot P := by
  funext i
  obtain ⟨b, s, v, rfl⟩ : ∃ (b : Fin 4) (s : Fin 8193) (v : Fin 2048), i = ix3 b s v := ⟨i 0, i 1, i 2, eq_ix3 i⟩
  have hb := b.isLt
  have hv := v.isLt
  refine (Cert.KernelIdeal.TailValue.untile_apply _ b s v).trans ?_
  refine (Cert.KernelIdeal.RegionValue.expand_apply _ _ _ _).trans ?_
  rw [Cert.KernelIdeal.Targets.targets_apply P _ s.isLt]
  exact word_at P b s v _ _ _
    (by show (v.val / 128 * 4 + b.val) % 4 = b.val; omega) rfl
    (by show (v.val / 128 * 4 + b.val) / 4 * 128 = v.val / 128 * 128; omega)

variable (m : (ℓ : Loc nD τ sig) → Buf (Elt Ideal) ℓ) (ρ : Dev nD → PrngReg)

/-- THE RUN, READ: every weakly fair execution of the kernel program terminates with its result at the one-hot rows of
    the ids with the start id, and the ids unchanged. -/
theorem run : θ_run defs (onTc (τ := τ) (main (F := Ideal))) ⟨m, fun _ => 0, ρ⟩ fun r => ∀ c : Dev nD,
      r.2.mem ((c : Thread nD τ).loc main_v16)
        = Cert.OneHotSpec.oneHot (Cert.OneHotSpec.withStart (m ((c : Thread nD τ).loc main_arg0)))
      ∧ r.2.mem ((c : Thread nD τ).loc main_arg0) = m ((c : Thread nD τ).loc main_arg0) :=
  (θ_run defs _ _).mono (fun r h c =>
    ⟨(((h c).2 main_v16 (Pipeline.mem_restRefs_of main_v16 (by decide) (by decide))).trans
        (Cert.KernelIdeal.TailValue.tail_eq m c)).trans
        ((congrArg Cert.KernelIdeal.TailValue.untile
          ((Cert.KernelIdeal.RegionValue.final m c).trans
            (congrArg (Cert.KernelIdeal.RegionValue.expand (F := Ideal)) (Cert.KernelIdeal.Targets.V_targets m c)))).trans
          (result_eq _)),
      ((h c).2 main_arg0 (Pipeline.mem_restRefs_of main_arg0 (by decide) (by decide))).trans (W_main_arg0 m (dats m) c)⟩)
    (run_main m ρ)

end Cert.KernelIdeal.KernelValue

end
-- ==== Proof.RefValue.lean ====
/-
  The reference computes the specification. It prepends the start id, repeats each id along a new last axis of 2048,
  compares with the vocabulary index along that axis, and converts the one-bit answer as an unsigned integer: entry
  (b, s, v) is [id (b, s) = v], which is `oneHot` of the ids with the start id, index by index.
-/
import proofs.«179684_g4715874091103_cont_8to1_c_864_11_alg».proof.Proof.Gen.ReferenceIdeal.Read
import proofs.«179684_g4715874091103_cont_8to1_c_864_11_alg».proof.Proof.OneHotSpec

noncomputable section

namespace Cert.ReferenceIdeal.RefValue

open Cert.ReferenceIdeal Cert.ReferenceIdeal.Gen Cert.ReferenceIdeal.Read Idealize.ShloMosaic
open Idealize.ShloMosaic.ValueIdx

/-- The reference's result is the one-hot rows of the ids with the start id. -/
theorem reference_eq (x0 : IVec S4x8192 32) :
    val_main_v1 (F := Ideal) x0 = Cert.OneHotSpec.oneHot (Cert.OneHotSpec.withStart x0) := by
  funext i
  have hi : idx_main_call1_v0 (idx_main_call1_v2 i)
      = ix2 (⟨(i 0).val, show (i 0).val < 4 from (i 0).isLt⟩ : Fin 4)
          (⟨(i 1).val, show (i 1).val < 8193 from (i 1).isLt⟩ : Fin 8193) :=
    funext fun a => Fin.ext (by match a with | ⟨0, _⟩ => rfl | ⟨1, _⟩ => rfl)
  rw [val_main_v1_apply, val_main_call1_v4_apply, val_main_call1_v2_apply, val_main_call1_v0_apply,
    val_main_call1_v3_apply, val_main_call1_v1_apply, hi]
  rfl

end Cert.ReferenceIdeal.RefValue

end
-- ==== Proof.lean ====
/-
  One-hot encoding of token ids: the kernel program against its reference, over the extended reals.

  Both programs take ids [4, 8192] of 32-bit integers, prepend the start id 0 to each row, and return
  [4, 8193, 2048] floats: 1 where the id equals the vocabulary index, 0 elsewhere.

  The reference compares each id with each vocabulary index v and converts the one-bit answer.

  The kernel program splits the vocabulary axis into 16 stripes of 128 lanes. It lays the ids out as [8193, 64], column
  c = 4 k + b holding batch b for stripe k, subtracts the stripe's first index 128 k, and lets a pallas_call over 17
  blocks of 512 rows compare each word with the lane number 0 .. 127 and store [word = lane] as a float; the last block
  has one row inside the 8193-row result and is cut there. Host lines after the call regroup [8193, 64, 128] into
  [4, 8193, 2048], entry (b, s, 128 k + l) coming from (s, 4 k + b, l).

  The two agree word by word because subtracting 128 k is a bijection of the 32-bit words: id - 128 k = l exactly when
  id = 128 k + l (`Cert.OneHotWord.kernel_word`), for every id, in or out of the vocabulary; and the bit 1 is the real
  number 1 whether widened with zeros and read signed (the kernel) or read unsigned (the reference). No float
  arithmetic is involved, so no finiteness is used.

  The modules: `OneHotSpec` (the specification), `OneHotWord` (the law above), `StripeLayout` and `StripeOffset`
  (the index algebra of the layout operations and the stripe offsets), `Targets` (the array the kernel stages),
  `BodyValue` and `RegionValue` (what the body stores; the kernel's result array after the 17 write-backs),
  `TailValue` (the host lines after the call), `KernelValue` (the kernel program's run, read), `RefValue` (the
  reference is the specification). The three frames are the generated runs; the idealization rewrote nothing.
-/
import proofs.«179684_g4715874091103_cont_8to1_c_864_11_alg».proof.Defs
import proofs.«179684_g4715874091103_cont_8to1_c_864_11_alg».proof.Proof.Gen.Kernel
import proofs.«179684_g4715874091103_cont_8to1_c_864_11_alg».proof.Proof.Gen.Kernel.Skeleton
import proofs.«179684_g4715874091103_cont_8to1_c_864_11_alg».proof.Proof.Gen.Kernel.Launch
import proofs.«179684_g4715874091103_cont_8to1_c_864_11_alg».proof.Proof.Gen.Kernel.Points
import proofs.«179684_g4715874091103_cont_8to1_c_864_11_alg».proof.Proof.Gen.Kernel.Frame
import proofs.«179684_g4715874091103_cont_8to1_c_864_11_alg».proof.Proof.Gen.KernelIdeal
import proofs.«179684_g4715874091103_cont_8to1_c_864_11_alg».proof.Proof.Gen.KernelIdeal.Skeleton
import proofs.«179684_g4715874091103_cont_8to1_c_864_11_alg».proof.Proof.Gen.KernelIdeal.Launch
import proofs.«179684_g4715874091103_cont_8to1_c_864_11_alg».proof.Proof.Gen.KernelIdeal.Points
import proofs.«179684_g4715874091103_cont_8to1_c_864_11_alg».proof.Proof.Gen.KernelIdeal.Frame
import proofs.«179684_g4715874091103_cont_8to1_c_864_11_alg».proof.Proof.Gen.ReferenceIdeal
import proofs.«179684_g4715874091103_cont_8to1_c_864_11_alg».proof.Proof.Gen.ReferenceIdeal.Run
import proofs.«179684_g4715874091103_cont_8to1_c_864_11_alg».proof.Proof.Gen.ReferenceIdeal.Read
import proofs.«179684_g4715874091103_cont_8to1_c_864_11_alg».proof.Proof.KernelValue
import proofs.«179684_g4715874091103_cont_8to1_c_864_11_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and leaves the ids unchanged. -/
theorem frame_kernel : Cert.frame_Kernel := fun m ρ _ => Cert.Kernel.Gen.frame m ρ

/-- So does its reading at the ideal instance. -/
theorem frame_kernelIdeal : Cert.frame_KernelIdeal := fun m ρ _ => Cert.KernelIdeal.Gen.frame m ρ

/-- The reference runs and leaves the ids unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the one-hot rows of the ids with the start id. -/
theorem algebraic : Cert.algebraic_KernelIdeal_ReferenceIdeal := by
  intro m ρ m' ρ' _ hagree
  refine ⟨fun c => Cert.OneHotSpec.oneHot (Cert.OneHotSpec.withStart
      (m ((c.tc : Thread Cert.KernelIdeal.nD Cert.KernelIdeal.τ).loc Cert.KernelIdeal.main_arg0))),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [hagree c]
  exact (Cert.ReferenceIdeal.Read.val_main_v1_eq _).trans (Cert.ReferenceIdeal.RefValue.reference_eq _)

theorem claim : Cert.Claim :=
  ⟨Cert.Kernel.Gen.facts, Cert.KernelIdeal.Gen.facts, Cert.ReferenceIdeal.Gen.facts,
    frame_kernel, frame_kernelIdeal, frame_referenceIdeal, preserves, algebraic⟩

end Cert.Proof

end
